-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S32x1024x1024 : Shape := ⟨3, ![32, 1024, 1024]⟩
abbrev S1x1024x1024 : Shape := ⟨3, ![1, 1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S32x1x1024x1024, .f32⟩
  | .hbm, ⟨1, _⟩ => ⟨S32x1024x1024, .f32⟩
  | .hbm, ⟨2, _⟩ => ⟨S32x1024x1024, .f32⟩
  | .hbm, ⟨3, _⟩ => ⟨S32x1x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x1x1024x1024_S32x1024x1024 : S32x1x1024x1024.ShapeCasts S32x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  iota_S1x1024x1024_d1_w32 : S1x1024x1024.Iotas .tc 32 [1]
  rotates_S1x1024x1024_d1 : S1x1024x1024.Rotates 1 none
  iota_S1x1024x1024_d2_w32 : S1x1024x1024.Iotas .tc 32 [2]
  rotates_S1x1024x1024_d2 : S1x1024x1024.Rotates 2 none
  shapeCasts_S32x1024x1024_S32x1x1024x1024 : S32x1024x1024.ShapeCasts S32x1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)

variable [Facts₀]

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1x1028x1028 : Shape := ⟨4, ![32, 1, 1028, 1028]⟩

abbrev nBuf : Space → Nat
  | .hbm => 6
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S_, .f32⟩
  | .hbm, ⟨2, _⟩ => ⟨S_, .f32⟩
  | .hbm, ⟨3, _⟩ => ⟨S32x1x1028x1028, .f32⟩
  | .hbm, ⟨4, _⟩ => ⟨S_, .f32⟩
  | .hbm, ⟨5, _⟩ => ⟨S32x1x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  pads_S32x1x1024x1024_S32x1x1028x1028_000_000_220_220 : S32x1x1024x1024.Pads (![0, 0, 2, 2] : Fin 4 → Nat) ![0, 0, 2, 2] ![0, 0, 0, 0] S32x1x1028x1028
  h_S_ : 0 < S_.numel
  reduceWindows_S32x1x1028x1028_S32x1x1024x1024_w1s1p0_0_w1s1p0_0_w5s1p0_0_w5s1p0_0 : S32x1x1028x1028.ReduceWindows (![1, 1, 5, 5] : Fin 4 → Nat) ![1, 1, 1, 1] ![0, 0, 0, 0] ![0, 0, 0, 0] S32x1x1024x1024

variable [Facts₀]

class Facts : Prop extends Facts₀ where

variable [Facts]
-- ==== Proof.Spec.lean ====
/-
  The 5 × 5 window minimum of an image with a constant border, in its two arrangements.

  An image of 1024 × 1024 entries is extended by a border of width two holding the constant `c`: `padded x c h' w'` is
  `x (h' - 2) (w' - 2)` for `2 ≤ h', w' < 1026` and `c` elsewhere. The eroded image at `(h, w)` is the minimum of the
  25 entries `padded x c (h + k₁) (w + k₂)`, `k₁, k₂ < 5`.

  The SEPARABLE arrangement first takes, in every column, the minimum of five consecutive entries of the column extended
  by `c` (`tap` reads one of them), and then, in every row of the result, the minimum of five consecutive entries of
  that row extended by `c`. Where the second pass reads the border, the 25-entry form reads five border entries, all
  `c`; where it reads a column minimum, the 25-entry form reads that column's five entries. So a value lies below
  the separable minimum iff it lies below all 25 entries of the window (`le_sepMin_iff`): the two arrangements have
  the same lower bounds and are equal. Only the order is used: no arithmetic, and nothing about `c`.
-/
import Mathlib.Order.Lattice
import Mathlib.Order.MinMax
import Mathlib.Order.Fin.Basic

namespace Cert.Erosion

variable {α : Type} [LinearOrder α]

/-- Entry `n - 2` of a line of 1024 entries extended by two entries `c` at either end, read at `n`. -/
def tap (f : Fin 1024 → α) (c : α) (n : ℕ) : α :=
  if h : 2 ≤ n ∧ n < 1026 then f ⟨n - 2, by omega⟩ else c

/-- The minimum of five entries, taken in the order 0, 1, 2, 3, 4. -/
def min5 (g : Fin 5 → α) : α := min (min (min (min (g 0) (g 1)) (g 2)) (g 3)) (g 4)

theorem le_min5_iff (g : Fin 5 → α) (z : α) : z ≤ min5 g ↔ ∀ k, z ≤ g k := by
  unfold min5
  simp only [le_min_iff]
  constructor
  · rintro ⟨⟨⟨⟨h0, h1⟩, h2⟩, h3⟩, h4⟩ k
    match k with
    | ⟨0, _⟩ => exact h0
    | ⟨1, _⟩ => exact h1
    | ⟨2, _⟩ => exact h2
    | ⟨3, _⟩ => exact h3
    | ⟨4, _⟩ => exact h4
  · exact fun H => ⟨⟨⟨⟨H 0, H 1⟩, H 2⟩, H 3⟩, H 4⟩

/-- Reading the extended line of five-entry minima: below it iff below the same reading of each of the five lines. -/
theorem le_tap_min5_iff (g : Fin 1024 → Fin 5 → α) (c : α) (n : ℕ) (z : α) :
    z ≤ tap (fun q => min5 (g q)) c n ↔ ∀ k : Fin 5, z ≤ tap (fun q => g q k) c n := by
  unfold tap
  by_cases h : 2 ≤ n ∧ n < 1026
  · simp only [dif_pos h]; exact le_min5_iff _ _
  · simp only [dif_neg h]; exact ⟨fun H _ => H, fun H => H 0⟩

/-- The image extended by a border of width two holding `c`. -/
def padded (x : Fin 1024 → Fin 1024 → α) (c : α) (h' w' : ℕ) : α :=
  tap (fun q => tap (fun r => x r q) c h') c w'

/-- The separable window minimum: five-entry minima down the columns, then five-entry minima along the rows. -/
def sepMin (x : Fin 1024 → Fin 1024 → α) (c : α) (h w : ℕ) : α :=
  min5 fun k₂ => tap (fun q => min5 fun k₁ => tap (fun r => x r q) c (h + k₁.val)) c (w + k₂.val)

/-- A value is below the separable minimum iff it is below all 25 entries of the window of the extended image. -/
theorem le_sepMin_iff (x : Fin 1024 → Fin 1024 → α) (c : α) (h w : ℕ) (z : α) :
    z ≤ sepMin x c h w ↔ ∀ k₁ k₂ : Fin 5, z ≤ padded x c (h + k₁.val) (w + k₂.val) := by
  unfold sepMin padded
  rw [le_min5_iff]
  constructor
  · intro H k₁ k₂
    exact (le_tap_min5_iff (fun q k₁ => tap (fun r => x r q) c (h + k₁.val)) c _ z).mp (H k₂) k₁
  · intro H k₂
    exact (le_tap_min5_iff (fun q k₁ => tap (fun r => x r q) c (h + k₁.val)) c _ z).mpr fun k₁ => H k₁ k₂

end Cert.Erosion
-- ==== Proof.Taps.lean ====
/-
  One pass of the separable window minimum over a block of shape [1, 1024, 1024], read at an index.

  The kernel forms each of the five candidates of a pass from three vectors: the block rotated along the pass's axis
  by `2, 1, 0, 1023, 1022` places (a rotation by `1024 - s` places brings entry `n + s` to position `n`), the
  coordinate `n` along that axis as a 32-bit word (an iota), and the offset `s = -2, …, 2`: where `0 ≤ n + s < 1024` as
  signed words the candidate is the rotated entry, elsewhere the border constant `c`. With `k = s + 2` this is the
  line extended by two entries `c` at either end and read at `n + k` (`Cert.Erosion.tap`): the test holds iff
  `2 ≤ n + k < 1026` and then the rotated entry is entry `n + k - 2` — two facts, one about signed 32-bit words
  (a coordinate below 1024 plus an offset between -2 and 2 does not wrap) and one about remainders modulo 1024. The
  pass's result is the minimum of the five candidates in the order `k = 0, …, 4`.
-/
import Idealize.ShloMosaic.Lib.KernelVsHost
import Idealize.ShloMosaic.Lib.Pipeline.Value
import Idealize.ShloMosaic.Lib.ValueIdx
import proofs.«176648_j6339371728979_1_alg».proof.Proof.Spec

noncomputable section

namespace Cert.Erosion

open Idealize.ShloMosaic Idealize.ShloMosaic.ValueIdx

/-- The shape of one block: one image. -/
abbrev Blk : Shape := ⟨3, ![1, 1024, 1024]⟩

/-- The test `0 ≤ i + s < 1024` on signed 32-bit words, as the kernel computes it. -/
def maskWord (s i : BitVec 32) : BitVec 1 :=
  IntOp.andi (IntOp.cmpi .sge (IntOp.addi i s) 0#32) (IntOp.cmpi .slt (IntOp.addi i s) 1024#32)

/-! ### The five tests and the five rotations, at every coordinate -/

theorem ofBool_and (a b : Bool) : BitVec.ofBool a &&& BitVec.ofBool b = BitVec.ofBool (a && b) := by
  cases a <;> cases b <;> decide

/-- A coordinate word plus a small signed offset does not wrap: as a signed number it is the sum. -/
theorem toInt_add_small (s : BitVec 32) (d : ℤ) (hs : s.toInt = d) (hd : -2 ≤ d ∧ d ≤ 2) (n : ℕ) (hn : n < 1024) :
    (BitVec.ofNat 32 n + s).toInt = (n : ℤ) + d := by
  rw [BitVec.toInt_add, BitVec.toInt_ofNat', hs]
  simp only [Int.bmod_def]
  omega

/-- The test on words is the test on numbers. -/
theorem maskWord_eq (s : BitVec 32) (d : ℤ) (hs : s.toInt = d) (hd : -2 ≤ d ∧ d ≤ 2) (n : ℕ) (hn : n < 1024) :
    maskWord s (BitVec.ofNat 32 n) = if 0 ≤ (n : ℤ) + d ∧ (n : ℤ) + d < 1024 then 1#1 else 0#1 := by
  unfold maskWord IntOp.andi IntOp.cmpi IntOp.addi
  simp only
  rw [ofBool_and, BitVec.sle, BitVec.slt, toInt_add_small s d hs hd n hn]
  have z0 : (0#32 : BitVec 32).toInt = 0 := by decide
  have z1 : (1024#32 : BitVec 32).toInt = 1024 := by decide
  rw [z0, z1]
  by_cases hv : 0 ≤ (n : ℤ) + d ∧ (n : ℤ) + d < 1024
  · rw [if_pos hv]; simp [hv.1, hv.2]
  · rw [if_neg hv]
    have : ¬ (0 ≤ (n : ℤ) + d) ∨ ¬ ((n : ℤ) + d < 1024) := by omega
    rcases this with h | h <;> simp [h]

/-- With `k = s + 2`: the test `0 ≤ n + s < 1024` is `2 ≤ n + k < 1026`. -/
theorem mask_of (s : BitVec 32) (k : ℕ) (hk : k ≤ 4) (hs : s.toInt = (k : ℤ) - 2) (n : Fin 1024) :
    maskWord s (BitVec.ofNat 32 n.val) = if 2 ≤ n.val + k ∧ n.val + k < 1026 then 1#1 else 0#1 := by
  rw [maskWord_eq s ((k : ℤ) - 2) hs (by omega) n.val n.isLt]
  exact if_congr (by omega) rfl rfl

/-- A rotation by `(1026 - k) mod 1024` places reads entry `n + k - 2` at `n`, when that is an entry. -/
theorem rot_of (sh : BitVec 32) (k : ℕ) (hk : k ≤ 4) (hsh : sh.toNat = (1026 - k) % 1024) (n : Fin 1024)
    (hv : 2 ≤ n.val + k ∧ n.val + k < 1026) : (n.val + 1024 - sh.toNat % 1024) % 1024 = n.val + k - 2 := by
  have := n.isLt
  rw [hsh]; omega

theorem mask0 (n : Fin 1024) : maskWord 4294967294#32 (BitVec.ofNat 32 n.val)
    = if 2 ≤ n.val + 0 ∧ n.val + 0 < 1026 then 1#1 else 0#1 := mask_of _ 0 (by omega) (by decide) n
theorem mask1 (n : Fin 1024) : maskWord 4294967295#32 (BitVec.ofNat 32 n.val)
    = if 2 ≤ n.val + 1 ∧ n.val + 1 < 1026 then 1#1 else 0#1 := mask_of _ 1 (by omega) (by decide) n
theorem mask2 (n : Fin 1024) : maskWord 0#32 (BitVec.ofNat 32 n.val)
    = if 2 ≤ n.val + 2 ∧ n.val + 2 < 1026 then 1#1 else 0#1 := mask_of _ 2 (by omega) (by decide) n
theorem mask3 (n : Fin 1024) : maskWord 1#32 (BitVec.ofNat 32 n.val)
    = if 2 ≤ n.val + 3 ∧ n.val + 3 < 1026 then 1#1 else 0#1 := mask_of _ 3 (by omega) (by decide) n
theorem mask4 (n : Fin 1024) : maskWord 2#32 (BitVec.ofNat 32 n.val)
    = if 2 ≤ n.val + 4 ∧ n.val + 4 < 1026 then 1#1 else 0#1 := mask_of _ 4 (by omega) (by decide) n

theorem rot0 (n : Fin 1024) (hv : 2 ≤ n.val + 0 ∧ n.val + 0 < 1026) :
    (n.val + 1024 - (2#32 : BitVec 32).toNat % 1024) % 1024 = n.val + 0 - 2 := rot_of _ 0 (by omega) rfl n hv
theorem rot1 (n : Fin 1024) (hv : 2 ≤ n.val + 1 ∧ n.val + 1 < 1026) :
    (n.val + 1024 - (1#32 : BitVec 32).toNat % 1024) % 1024 = n.val + 1 - 2 := rot_of _ 1 (by omega) rfl n hv
theorem rot2 (n : Fin 1024) (hv : 2 ≤ n.val + 2 ∧ n.val + 2 < 1026) :
    (n.val + 1024 - (0#32 : BitVec 32).toNat % 1024) % 1024 = n.val + 2 - 2 := rot_of _ 2 (by omega) rfl n hv
theorem rot3 (n : Fin 1024) (hv : 2 ≤ n.val + 3 ∧ n.val + 3 < 1026) :
    (n.val + 1024 - (1023#32 : BitVec 32).toNat % 1024) % 1024 = n.val + 3 - 2 := rot_of _ 3 (by omega) rfl n hv
theorem rot4 (n : Fin 1024) (hv : 2 ≤ n.val + 4 ∧ n.val + 4 < 1026) :
    (n.val + 1024 - (1022#32 : BitVec 32).toNat % 1024) % 1024 = n.val + 4 - 2 := rot_of _ 4 (by omega) rfl n hv

/-! ### One candidate -/

/-- One candidate of a pass along axis `a`: the block rotated by `shK` where the coordinate word `io` plus `sK` is a
    coordinate, the constant `c` elsewhere. -/
def tapVec {α : Type} (a : Fin 3) (hr : Blk.Rotates a none) (io : IVec Blk 32) (sK shK : BitVec 32) (c : α)
    (y : Blk.Idx → α) : Blk.Idx → α :=
  select (andi (cmpi .sge (addi io (broadcast Blk sK)) (broadcast Blk 0#32))
      (cmpi .slt (addi io (broadcast Blk sK)) (broadcast Blk 1024#32)))
    (dynamicRotate a shK none y hr) (broadcast Blk c)

theorem tapVec_apply {α : Type} (a : Fin 3) (hr : Blk.Rotates a none) (io : IVec Blk 32) (sK shK : BitVec 32) (c : α)
    (y : Blk.Idx → α) (j : Blk.Idx) :
    tapVec a hr io sK shK c y j = Scalar.select (maskWord sK (io j)) (dynamicRotate a shK none y hr j) c := rfl

/-- A candidate of the pass down the columns (axis 1), at row `h` of column `w`: the column extended by `c`, read at
    `h + k`. -/
theorem tapVec_rows {α : Type} (hr : Blk.Rotates 1 none) (hi : Blk.Iotas .tc 32 [1]) (sK shK : BitVec 32) (k : ℕ)
    (hmask : ∀ n : Fin 1024, maskWord sK (BitVec.ofNat 32 n.val) = if 2 ≤ n.val + k ∧ n.val + k < 1026 then 1#1 else 0#1)
    (hrot : ∀ n : Fin 1024, 2 ≤ n.val + k ∧ n.val + k < 1026 →
      (n.val + 1024 - shK.toNat % 1024) % 1024 = n.val + k - 2)
    (c : α) (y : Blk.Idx → α) (z : Fin 1) (h w : Fin 1024) :
    tapVec 1 hr (iota .tc Blk 32 [1] hi) sK shK c y (ix3 z h w) = tap (fun r => y (ix3 z r w)) c (h.val + k) := by
  rw [tapVec_apply, iota_single_apply]
  show Scalar.select (maskWord sK (BitVec.ofNat 32 h.val)) _ c = _
  rw [hmask h]
  unfold tap
  by_cases hv : 2 ≤ h.val + k ∧ h.val + k < 1026
  · rw [if_pos hv, select_one, dif_pos hv]
    exact dynamicRotate_apply 1 shK y hr (ix3 z h w) (ix3 z ⟨h.val + k - 2, by omega⟩ w) (fun b => by
      match b with
      | ⟨0, _⟩ => rfl
      | ⟨1, _⟩ => exact (hrot h hv).symm
      | ⟨2, _⟩ => rfl)
  · rw [if_neg hv, select_zero, dif_neg hv]

/-- A candidate of the pass along the rows (axis 2), at column `w` of row `h`: the row extended by `c`, read at
    `w + k`. -/
theorem tapVec_cols {α : Type} (hr : Blk.Rotates 2 none) (hi : Blk.Iotas .tc 32 [2]) (sK shK : BitVec 32) (k : ℕ)
    (hmask : ∀ n : Fin 1024, maskWord sK (BitVec.ofNat 32 n.val) = if 2 ≤ n.val + k ∧ n.val + k < 1026 then 1#1 else 0#1)
    (hrot : ∀ n : Fin 1024, 2 ≤ n.val + k ∧ n.val + k < 1026 →
      (n.val + 1024 - shK.toNat % 1024) % 1024 = n.val + k - 2)
    (c : α) (y : Blk.Idx → α) (z : Fin 1) (h w : Fin 1024) :
    tapVec 2 hr (iota .tc Blk 32 [2] hi) sK shK c y (ix3 z h w) = tap (fun q => y (ix3 z h q)) c (w.val + k) := by
  rw [tapVec_apply, iota_single_apply]
  show Scalar.select (maskWord sK (BitVec.ofNat 32 w.val)) _ c = _
  rw [hmask w]
  unfold tap
  by_cases hv : 2 ≤ w.val + k ∧ w.val + k < 1026
  · rw [if_pos hv, select_one, dif_pos hv]
    exact dynamicRotate_apply 2 shK y hr (ix3 z h w) (ix3 z h ⟨w.val + k - 2, by omega⟩) (fun b => by
      match b with
      | ⟨0, _⟩ => rfl
      | ⟨1, _⟩ => rfl
      | ⟨2, _⟩ => exact (hrot w hv).symm)
  · rw [if_neg hv, select_zero, dif_neg hv]

/-! ### A pass -/

/-- The offset word `s` and the rotation amount `r` form candidate `k` of a pass: the test `0 ≤ n + s < 1024` is
    `2 ≤ n + k < 1026`, and where it holds the rotation by `r` reads entry `n + k - 2` at `n`. -/
def TapOK (s r : BitVec 32) (k : ℕ) : Prop :=
  (∀ n : Fin 1024, maskWord s (BitVec.ofNat 32 n.val) = if 2 ≤ n.val + k ∧ n.val + k < 1026 then 1#1 else 0#1)
    ∧ ∀ n : Fin 1024, 2 ≤ n.val + k ∧ n.val + k < 1026 → (n.val + 1024 - r.toNat % 1024) % 1024 = n.val + k - 2

/-- The kernel's five candidates: offsets `-2, -1, 0, 1, 2` with rotations by `2, 1, 0, 1023, 1022` places. -/
theorem tapOK0 : TapOK 4294967294#32 2#32 0 := ⟨mask0, rot0⟩
theorem tapOK1 : TapOK 4294967295#32 1#32 1 := ⟨mask1, rot1⟩
theorem tapOK2 : TapOK 0#32 0#32 2 := ⟨mask2, rot2⟩
theorem tapOK3 : TapOK 1#32 1023#32 3 := ⟨mask3, rot3⟩
theorem tapOK4 : TapOK 2#32 1022#32 4 := ⟨mask4, rot4⟩

/-- The pass along axis `a`: the minimum of five candidates, taken in the order given. -/
def pass (a : Fin 3) (hr : Blk.Rotates a none) (io : IVec Blk 32) (s0 r0 s1 r1 s2 r2 s3 r3 s4 r4 : BitVec 32)
    (c : Ideal .f32) (y : FVec Ideal Blk .f32) : FVec Ideal Blk .f32 :=
  minimumf (minimumf (minimumf (minimumf
    (tapVec a hr io s0 r0 c y)
    (tapVec a hr io s1 r1 c y))
    (tapVec a hr io s2 r2 c y))
    (tapVec a hr io s3 r3 c y))
    (tapVec a hr io s4 r4 c y)

variable {s0 r0 s1 r1 s2 r2 s3 r3 s4 r4 : BitVec 32}

/-- The pass down the columns at `(h, w)`: the minimum of the column's five entries around row `h`. -/
theorem pass_rows_apply (hr : Blk.Rotates 1 none) (hi : Blk.Iotas .tc 32 [1])
    (k0 : TapOK s0 r0 0) (k1 : TapOK s1 r1 1) (k2 : TapOK s2 r2 2) (k3 : TapOK s3 r3 3) (k4 : TapOK s4 r4 4)
    (c : Ideal .f32) (y : FVec Ideal Blk .f32) (z : Fin 1) (h w : Fin 1024) :
    pass 1 hr (iota .tc Blk 32 [1] hi) s0 r0 s1 r1 s2 r2 s3 r3 s4 r4 c y (ix3 z h w)
      = min5 fun k => tap (fun r => y (ix3 z r w)) c (h.val + k.val) := by
  unfold pass min5
  simp only [minimumf_apply]
  rw [tapVec_rows hr hi s0 r0 0 k0.1 k0.2, tapVec_rows hr hi s1 r1 1 k1.1 k1.2, tapVec_rows hr hi s2 r2 2 k2.1 k2.2,
    tapVec_rows hr hi s3 r3 3 k3.1 k3.2, tapVec_rows hr hi s4 r4 4 k4.1 k4.2]
  rfl

/-- The pass along the rows at `(h, w)`: the minimum of the row's five entries around column `w`. -/
theorem pass_cols_apply (hr : Blk.Rotates 2 none) (hi : Blk.Iotas .tc 32 [2])
    (k0 : TapOK s0 r0 0) (k1 : TapOK s1 r1 1) (k2 : TapOK s2 r2 2) (k3 : TapOK s3 r3 3) (k4 : TapOK s4 r4 4)
    (c : Ideal .f32) (y : FVec Ideal Blk .f32) (z : Fin 1) (h w : Fin 1024) :
    pass 2 hr (iota .tc Blk 32 [2] hi) s0 r0 s1 r1 s2 r2 s3 r3 s4 r4 c y (ix3 z h w)
      = min5 fun k => tap (fun q => y (ix3 z h q)) c (w.val + k.val) := by
  unfold pass min5
  simp only [minimumf_apply]
  rw [tapVec_cols hr hi s0 r0 0 k0.1 k0.2, tapVec_cols hr hi s1 r1 1 k1.1 k1.2, tapVec_cols hr hi s2 r2 2 k2.1 k2.2,
    tapVec_cols hr hi s3 r3 3 k3.1 k3.2, tapVec_cols hr hi s4 r4 4 k4.1 k4.2]
  rfl

/-- The two passes, columns first: the separable window minimum of the image in the block. -/
theorem two_pass_apply (hr1 : Blk.Rotates 1 none) (hi1 : Blk.Iotas .tc 32 [1]) (hr2 : Blk.Rotates 2 none)
    (hi2 : Blk.Iotas .tc 32 [2])
    (k0 : TapOK s0 r0 0) (k1 : TapOK s1 r1 1) (k2 : TapOK s2 r2 2) (k3 : TapOK s3 r3 3) (k4 : TapOK s4 r4 4)
    (c : Ideal .f32) (x : FVec Ideal Blk .f32) (z : Fin 1) (h w : Fin 1024) :
    pass 2 hr2 (iota .tc Blk 32 [2] hi2) s0 r0 s1 r1 s2 r2 s3 r3 s4 r4 c
        (pass 1 hr1 (iota .tc Blk 32 [1] hi1) s0 r0 s1 r1 s2 r2 s3 r3 s4 r4 c x) (ix3 z h w)
      = sepMin (fun r q => x (ix3 z r q)) c h.val w.val := by
  rw [pass_cols_apply hr2 hi2 k0 k1 k2 k3 k4]
  unfold sepMin
  simp only [pass_rows_apply hr1 hi1 k0 k1 k2 k3 k4]

end Cert.Erosion

end
-- ==== Proof.Eroded.lean ====
/-
  The eroded batch: 32 × 1 images of 1024 × 1024 entries, each replaced by its 5 × 5 window minimum over the image
  extended by a border of width two holding `c`, in the separable arrangement (`Cert.Erosion.sepMin`). Both programs
  are shown to end with this array: the kernel computes it in this arrangement, the reference in the 25-entry one.
-/
import Idealize.ShloMosaic.Lib.ValueIdx
import proofs.«176648_j6339371728979_1_alg».proof.Proof.Spec

namespace Cert.Erosion

open Idealize.ShloMosaic Idealize.ShloMosaic.ValueIdx

/-- The shape of the batch of images. -/
abbrev Img : Shape := ⟨4, ![32, 1, 1024, 1024]⟩

/-- Image `(b, z)` of the batch as a function of its row and column. -/
def image {α : Type} (x : Img.Idx → α) (b : Fin 32) (z : Fin 1) : Fin 1024 → Fin 1024 → α :=
  fun r q => x (ix4 b z r q)

/-- The eroded batch, index by index. -/
def eroded {α : Type} [LinearOrder α] (c : α) (x : Img.Idx → α) : Img.Idx → α :=
  fun i => sepMin (image x (i 0) (i 1)) c (i 2).val (i 3).val

theorem eroded_apply {α : Type} [LinearOrder α] (c : α) (x : Img.Idx → α) (b : Fin 32) (z : Fin 1) (h w : Fin 1024) :
    eroded c x (ix4 b z h w) = sepMin (image x b z) c h.val w.val := rfl

end Cert.Erosion
-- ==== Proof.KernelValue.lean ====
/-
  The kernel's result is the eroded batch.

  The grid has one point per image: point `t` stages block `(t, 0, 0)` of shape [1, 1024, 1024] of the batch viewed as
  [32, 1024, 1024], and writes back the block it computed to the same place of the result. The body's one store is
  the pass along the rows applied to the pass down the columns of the loaded block, so at `(0, h, w)` the block
  written back holds the separable window minimum of image `t` at `(h, w)` (`body_apply`). Every index `(b, h, w)` of
  the result lies in the block of point `b`, so after the run the result array is, index by index, the separable
  minimum of the staged array (`final`). Before the call the batch [32, 1, 1024, 1024] is re-laid as
  [32, 1024, 1024] and after it the result is re-laid back: entry `(b, z, h, w)` and entry `(b, h, w)` have the same
  row-major position because `z = 0`. Hence the program's result is `Cert.Erosion.eroded` of its argument.
-/
import proofs.«176648_j6339371728979_1_alg».proof.Proof.Gen.KernelIdeal.Frame
import proofs.«176648_j6339371728979_1_alg».proof.Proof.Taps
import proofs.«176648_j6339371728979_1_alg».proof.Proof.Eroded
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Cert.Erosion
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The border value: the word both programs spell, read as an extended real. -/
abbrev border : Ideal .f32 := Ideal.ofBits .f32 0x461C4000#32

theorem zeros3 : (![0, 0, 0] : Fin 3 → Nat) = fun _ => 0 := funext fun a => by fin_cases a <;> rfl

/-! ## The body -/

/-- What the body leaves in the output block: the pass along the rows of the pass down the columns of the input
    block. -/
theorem body_eq (x0 : Vec Ideal S1x1024x1024 .f32) :
    out0_1 (F := Ideal) x0
      = pass 2 rotates_S1x1024x1024_d2 (iota .tc S1x1024x1024 32 [2] iota_S1x1024x1024_d2_w32)
          4294967294#32 2#32 4294967295#32 1#32 0#32 0#32 1#32 1023#32 2#32 1022#32 border
          (pass 1 rotates_S1x1024x1024_d1 (iota .tc S1x1024x1024 32 [1] iota_S1x1024x1024_d1_w32)
            4294967294#32 2#32 4294967295#32 1#32 0#32 0#32 1#32 1023#32 2#32 1022#32 border x0) := by
  unfold out0_1
  rw [View.canon_unit_zero zeros3, View.ld_unit_zero (S := S1x1024x1024) zeros3]
  have e2 : k0_pay2 (F := Ideal) x0 = x0 := shapeCast_self _ _
  show pass 2 rotates_S1x1024x1024_d2 (iota .tc S1x1024x1024 32 [2] iota_S1x1024x1024_d2_w32)
      4294967294#32 2#32 4294967295#32 1#32 0#32 0#32 1#32 1023#32 2#32 1022#32 border
      (pass 1 rotates_S1x1024x1024_d1 (iota .tc S1x1024x1024 32 [1] iota_S1x1024x1024_d1_w32)
        4294967294#32 2#32 4294967295#32 1#32 0#32 0#32 1#32 1023#32 2#32 1022#32 border (k0_pay2 x0)) = _
  rw [e2]

/-- The output block at `j = (z, h, w)`: the separable window minimum, at `(h, w)`, of the image in the input block. -/
theorem body_apply (x0 : Vec Ideal S1x1024x1024 .f32) (j : S1x1024x1024.Idx) :
    out0_1 (F := Ideal) x0 j = sepMin (fun r q => x0 (ix3 (j 0) r q)) border (j 1).val (j 2).val := by
  obtain ⟨z, h, w, rfl⟩ : ∃ (z : Fin 1) (h w : Fin 1024), j = ix3 z h w := ⟨j 0, j 1, j 2, eq_ix3 j⟩
  rw [body_eq]
  exact two_pass_apply rotates_S1x1024x1024_d1 iota_S1x1024x1024_d1_w32 rotates_S1x1024x1024_d2
    iota_S1x1024x1024_d2_w32 tapOK0 tapOK1 tapOK2 tapOK3 tapOK4 border x0 z h w

/-! ## From blocks to the array -/

/-- The result array [32, 1024, 1024] as a function of the staged array: image `b` eroded. -/
def erodedFlat (X : S32x1024x1024.Idx → Ideal .f32) : S32x1024x1024.Idx → Ideal .f32 :=
  fun i => sepMin (fun r q => X (ix3 (i 0) r q)) border (i 1).val (i 2).val

/-- The printed index maps: at point `t` both windows are at block `(t, 0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- What point `t` writes back is block `t` of the eroded staged array. -/
theorem flushed_eq (c : Dev nD) (t : Fin cfg0.N) :
    (dats m 0 c).flushed 1 t = ((cfg0.win 1).blk t).view.read (Elt Ideal) (erodedFlat (V m c main_v0)) := by
  show (cfg0.win 1).cut (grid0.coords t) ((dats m 0 c).after 1 t) = _
  rw [after0_1]
  obtain ⟨e0, e1, e2, e3, e4, e5⟩ := idx_facts t
  funext j
  refine (body_apply (iblk m c 0 t) j).trans ?_
  show sepMin (α := EReal)
      (fun r q => (V m c main_v0 : S32x1024x1024.Idx → Ideal .f32) (((cfg0.win 0).blk t).view.emb (ix3 (j 0) r q)))
      border (j 1).val (j 2).val
    = sepMin (α := EReal)
        (fun r q => (V m c main_v0 : S32x1024x1024.Idx → Ideal .f32) (ix3 ((((cfg0.win 1).blk t).view.emb j) 0) r q))
        border ((((cfg0.win 1).blk t).view.emb j) 1).val ((((cfg0.win 1).blk t).view.emb j) 2).val
  have hx : (fun (r q : Fin 1024) =>
        (V m c main_v0 : S32x1024x1024.Idx → Ideal .f32) (((cfg0.win 0).blk t).view.emb (ix3 (j 0) r q)))
      = fun r q => (V m c main_v0 : S32x1024x1024.Idx → Ideal .f32) (ix3 ((((cfg0.win 1).blk t).view.emb j) 0) r q) := by
    funext r q
    refine congrArg (V m c main_v0 : S32x1024x1024.Idx → Ideal .f32) (funext fun a => Fin.ext ?_)
    match a with
    | ⟨0, _⟩ =>
      show win0_0.index t (0 : Fin 3) * 1 + 1 * (j 0).val = win0_1.index t (0 : Fin 3) * 1 + 1 * (j 0).val; omega
    | ⟨1, _⟩ => show win0_0.index t (1 : Fin 3) * 1024 + 1 * r.val = r.val; omega
    | ⟨2, _⟩ => show win0_0.index t (2 : Fin 3) * 1024 + 1 * q.val = q.val; omega
  have h1 : ((((cfg0.win 1).blk t).view.emb j) 1).val = (j 1).val := by
    show win0_1.index t (1 : Fin 3) * 1024 + 1 * (j 1).val = (j 1).val; omega
  have h2 : ((((cfg0.win 1).blk t).view.emb j) 2).val = (j 2).val := by
    show win0_1.index t (2 : Fin 3) * 1024 + 1 * (j 2).val = (j 2).val; omega
  rw [hx, h1, h2]

/-- An index of the result array is in point `t`'s block iff each coordinate is in the block's range. -/
theorem mem_blk (t : Fin cfg0.N) (i : S32x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v1).slice (win0_1.rect t)).set ↔ _
  rw [View.set_slice_whole, Rect.mem_set_unit]
  exact Iff.rfl

/-- Every index `(b, h, w)` of the result array is in the block of point `b`. -/
theorem cover (i : S32x1024x1024.Idx) :
    ∃ t : Fin cfg0.N, (cfg0.win 1).flush t = true ∧ i ∈ ((cfg0.win 1).blk t).view.set := by
  have hi0 : (i 0).val < 32 := (i 0).isLt
  have hi1 : (i 1).val < 1024 := (i 1).isLt
  have hi2 : (i 2).val < 1024 := (i 2).isLt
  obtain ⟨t, ht⟩ : ∃ t : Fin cfg0.N, t.val = (i 0).val :=
    ⟨⟨(i 0).val, by show (i 0).val < grid0.N; rw [N_0]; exact hi0⟩, rfl⟩
  obtain ⟨e0, e1, e2, e3, e4, e5⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1; omega
  | ⟨1, _⟩ =>
    show win0_1.index t (1 : Fin 3) * 1024 ≤ (i 1).val ∧ (i 1).val < win0_1.index t (1 : Fin 3) * 1024 + 1024; omega
  | ⟨2, _⟩ =>
    show win0_1.index t (2 : Fin 3) * 1024 ≤ (i 2).val ∧ (i 2).val < win0_1.index t (2 : Fin 3) * 1024 + 1024; omega

/-- The result array after the region: the eroded staged array. -/
theorem final (c : Dev nD) : (dats m 0 c).arrAt 1 cfg0.N = erodedFlat (V m c main_v0) :=
  (dats m 0 c).arrAt_eq_of_cover 1 (erodedFlat (V m c main_v0)) (fun t _ => flushed_eq m c t) cover

/-! ## The host lines around the call -/

/-- The staged array is the argument re-laid as [32, 1024, 1024]. -/
theorem staged_eq (c : Dev nD) : (V m c main_v0 : S32x1024x1024.Idx → Ideal .f32)
    = shapeCast S32x1024x1024 (m ((c : Thread nD τ).loc main_arg0)) shapeCasts_S32x1x1024x1024_S32x1024x1024 := by
  show StableHlo.after hostOps0 (fun b => m (c, b)) (Proc.devRef .tc main_v0) = _
  after_results
  rfl

/-- Re-laying a batch as [32, 1024, 1024], eroding every image, and re-laying back is eroding the batch. -/
theorem relay_eroded (x : S32x1x1024x1024.Idx → Ideal .f32) :
    shapeCast S32x1x1024x1024
        (erodedFlat (shapeCast S32x1024x1024 x shapeCasts_S32x1x1024x1024_S32x1024x1024))
        shapeCasts_S32x1024x1024_S32x1x1024x1024
      = eroded border x := by
  funext i
  obtain ⟨b, z, h, w, rfl⟩ : ∃ (b : Fin 32) (z : Fin 1) (h w : Fin 1024), i = ix4 b z h w :=
    ⟨i 0, i 1, i 2, i 3, eq_ix4 i⟩
  have hz : z.val = 0 := by have := z.isLt; omega
  rw [shapeCast_apply _ _ (ix4 b z h w) (ix3 b h w) (by
    rw [Shape.rowMajor_val_three, Shape.rowMajor_val_four]
    show (b.val * 1024 + h.val) * 1024 + w.val = ((b.val * 1 + z.val) * 1024 + h.val) * 1024 + w.val
    omega)]
  show sepMin (fun r q => shapeCast S32x1024x1024 x shapeCasts_S32x1x1024x1024_S32x1024x1024 (ix3 b r q)) border
      h.val w.val = sepMin (image x b z) border h.val w.val
  refine congrArg (fun f => sepMin f border h.val w.val) (funext fun r => funext fun q => ?_)
  exact shapeCast_apply _ _ (ix3 b r q) (ix4 b z r q) (by
    rw [Shape.rowMajor_val_three, Shape.rowMajor_val_four]
    show ((b.val * 1 + z.val) * 1024 + r.val) * 1024 + q.val = (b.val * 1024 + r.val) * 1024 + q.val
    omega)

/-- The program's result after the lines that follow the call: the eroded argument. -/
theorem result_eq (c : Dev nD) :
    Pipeline.afterTail₀ cfgs (dats m) 0 (V0 m) [hostOps1] c main_v2
      = eroded border (m ((c : Thread nD τ).loc main_arg0)) := by
  unfold Pipeline.afterTail₀
  show StableHlo.after hostOps1 _ (Proc.devRef .tc main_v2) = _
  after_results
  rw [(Pipeline.withArrays_arr spec0 launch0.win.arr_inj c _ _ 1).trans (final m c), staged_eq]
  exact relay_eroded _

/-! ## The run -/

/-- Every weakly fair execution of the kernel's program ends with the result at the eroded argument and the
    argument unchanged. -/
theorem run : θ_run defs (onTc (τ := τ) (main (F := Ideal))) ⟨m, fun _ => 0, ρ⟩ fun r => ∀ c : Dev nD,
      r.2.mem ((c : Thread nD τ).loc main_v2) = eroded border (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans
         (W_main_arg0 m (dats m) c)⟩)
    (run_main m ρ)

end Cert.KernelIdeal.KValue

end
-- ==== Proof.LibWindowMin.lean ====
/-
  The minimum over a sliding window, by its universal property.

  On a linear order a left fold of `min` from a starting value is the greatest lower bound of the starting value and
  the folded entries: `z` is below the fold iff it is below the start and below every entry. A host `reduce_window`
  whose body is `min` is such a fold over the positions of the window, so `z` is below its value at an index iff
  `z` is below the initial value and below the entry at every position of the window (the operand there where the
  position is inside the operand, the initial value where it is padding). Two window minima are then compared by
  comparing their sets of lower bounds, whatever order either was folded in.
-/
import Idealize.ShloMosaic.PureOps.Contract
import Mathlib.Order.Lattice
import Mathlib.Order.MinMax

namespace Idealize.ShloMosaic.WindowMin

/-- `z` is below a left fold of `min` iff it is below the starting value and below every folded entry. -/
theorem le_foldl_min_iff {α ι : Type} [LinearOrder α] (g : ι → α) (l : List ι) (v z : α) :
    z ≤ l.foldl (fun r n => min r (g n)) v ↔ z ≤ v ∧ ∀ n ∈ l, z ≤ g n := by
  induction l generalizing v with
  | nil => simp
  | cons a l ih =>
    rw [List.foldl_cons, ih, le_min_iff]
    constructor
    · rintro ⟨⟨h1, h2⟩, h3⟩
      refine ⟨h1, fun n hn => ?_⟩
      rcases List.mem_cons.mp hn with rfl | hn
      · exact h2
      · exact h3 n hn
    · rintro ⟨h1, h2⟩
      exact ⟨⟨h1, h2 a (List.mem_cons_self ..)⟩, fun n hn => h2 n (List.mem_cons_of_mem _ hn)⟩

/-- `z` is below a `reduce_window` by `min` at the index `j` iff it is below the initial value and below the
    entry at every position `i` of the window placed at `j`. -/
theorem le_reduceWindow_min_iff {s t u : Shape} {α : Type} [LinearOrder α] (window strides lo hi : Fin s.rank → Nat)
    (x : s.Idx → α) (init : u.Idx → α) (h : s.ReduceWindows window strides lo hi t) (hu : 0 < u.numel) (j : t.Idx)
    (z : α) :
    z ≤ Host.reduceWindow min window strides lo hi x init h hu j ↔
      z ≤ init (Shape.Idx.first hu) ∧ ∀ i : (⟨s.rank, window⟩ : Shape).Idx,
        z ≤ (if hin : ∀ a, lo a ≤ (j (a.cast h.1.symm)).val * strides a + (i a).val
                ∧ (j (a.cast h.1.symm)).val * strides a + (i a).val - lo a < s.size a
             then x (fun a => ⟨(j (a.cast h.1.symm)).val * strides a + (i a).val - lo a, (hin a).2⟩)
             else init (Shape.Idx.first hu)) := by
  unfold Host.reduceWindow
  dsimp only
  rw [le_foldl_min_iff]
  refine and_congr_right fun _ => ⟨fun H i => ?_, fun H n _ => H _⟩
  have := H ((⟨s.rank, window⟩ : Shape).rowMajor i) (List.mem_finRange _)
  simpa only [Equiv.symm_apply_apply] using this

/-- The same when every position of the window placed at `j` lies inside the operand (a window over an operand that
    was padded beforehand): the entries are the operand's, and the initial value enters only as the starting value. -/
theorem le_reduceWindow_min_iff_of_inside {s t u : Shape} {α : Type} [LinearOrder α]
    (window strides lo hi : Fin s.rank → Nat) (x : s.Idx → α) (init : u.Idx → α)
    (h : s.ReduceWindows window strides lo hi t) (hu : 0 < u.numel) (j : t.Idx) (z : α)
    (hall : ∀ (i : (⟨s.rank, window⟩ : Shape).Idx) (a : Fin s.rank),
      lo a ≤ (j (a.cast h.1.symm)).val * strides a + (i a).val
        ∧ (j (a.cast h.1.symm)).val * strides a + (i a).val - lo a < s.size a) :
    z ≤ Host.reduceWindow min window strides lo hi x init h hu j ↔
      z ≤ init (Shape.Idx.first hu) ∧ ∀ i : (⟨s.rank, window⟩ : Shape).Idx,
        z ≤ x (fun a => ⟨(j (a.cast h.1.symm)).val * strides a + (i a).val - lo a, (hall i a).2⟩) := by
  rw [le_reduceWindow_min_iff]
  refine and_congr_right fun _ => forall_congr' fun i => ?_
  rw [dif_pos (hall i)]

end Idealize.ShloMosaic.WindowMin
-- ==== Proof.RefValue.lean ====
/-
  The reference's result is the eroded batch.

  The reference pads every image with a border of width two holding the constant 10000 (the word 0x461C4000) and takes,
  at every `(h, w)`, the minimum of the 5 × 5 window of the padded image whose corner is `(h, w)`, folded from `+∞`.
  The padded image is `Cert.Erosion.padded`: inside, the image two places up and left; in the border, the constant.
  Every position of every window lies in the padded image, so a value is below the window minimum iff it is below
  `+∞` and below the 25 entries `padded (h + k₁) (w + k₂)`: exactly the lower bounds of the separable minimum
  (`le_sepMin_iff`). Two extended reals with the same lower bounds are equal.
-/
import proofs.«176648_j6339371728979_1_alg».proof.Proof.Gen.ReferenceIdeal.Read
import proofs.«176648_j6339371728979_1_alg».proof.Proof.LibWindowMin
import proofs.«176648_j6339371728979_1_alg».proof.Proof.Eroded
import Idealize.ShloMosaic.Lib.KernelVsHost
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Cert.Erosion
open Idealize.ShloMosaic Idealize.ShloMosaic.ValueIdx

/-- The border value: the word both programs spell, read as an extended real. -/
abbrev border : Ideal .f32 := Ideal.ofBits .f32 0x461C4000#32

/-- The padded batch at `(b, z, h', w')` is image `(b, z)` extended by the border, at `(h', w')`. -/
theorem pad_apply (x : S32x1x1024x1024.Idx → Ideal .f32) (b : Fin 32) (z : Fin 1) (h' w' : Fin 1028) :
    val_main_v0 (F := Ideal) x (ix4 b z h' w') = padded (image x b z) border h'.val w'.val := by
  unfold val_main_v0 padded tap image
  by_cases hw : 2 ≤ w'.val ∧ w'.val < 1026
  · by_cases hh : 2 ≤ h'.val ∧ h'.val < 1026
    · simp only [dif_pos hw, dif_pos hh]
      exact pad_apply_of_inside _ _ _ x _ _ _ (ix4 b z h' w')
        (ix4 b z ⟨h'.val - 2, by omega⟩ ⟨w'.val - 2, by omega⟩) (fun a => by
          match a with
          | ⟨0, _⟩ => show b.val = 0 + b.val * (0 + 1); omega
          | ⟨1, _⟩ => show z.val = 0 + z.val * (0 + 1); omega
          | ⟨2, _⟩ => show h'.val = 2 + (h'.val - 2) * (0 + 1); omega
          | ⟨3, _⟩ => show w'.val = 2 + (w'.val - 2) * (0 + 1); omega)
    · simp only [dif_pos hw, dif_neg hh]
      exact pad_apply_of_not_inside _ _ _ x _ _ _ (ix4 b z h' w') (2 : Fin 4) (by
        show ¬(2 ≤ h'.val ∧ (h'.val - 2) % (0 + 1) = 0 ∧ (h'.val - 2) / (0 + 1) < 1024); omega)
  · simp only [dif_neg hw]
    exact pad_apply_of_not_inside _ _ _ x _ _ _ (ix4 b z h' w') (3 : Fin 4) (by
      show ¬(2 ≤ w'.val ∧ (w'.val - 2) % (0 + 1) = 0 ∧ (w'.val - 2) / (0 + 1) < 1024); omega)

/-- A value is below the 5 × 5 window minimum at `(b, z, h, w)` iff it is below the initial value and below the 25
    entries of the window: no position of the window leaves the padded image. -/
theorem le_window_iff (X : S32x1x1028x1028.Idx → Ideal .f32) (init : S_.Idx → Ideal .f32) (b : Fin 32) (z : Fin 1)
    (h w : Fin 1024) (zz : EReal) :
    zz ≤ Host.reduceWindow (FloatOps.minimumf (F := Ideal) (φ := .f32)) ![1, 1, 5, 5] ![1, 1, 1, 1] ![0, 0, 0, 0]
          ![0, 0, 0, 0] X init reduceWindows_S32x1x1028x1028_S32x1x1024x1024_w1s1p0_0_w1s1p0_0_w5s1p0_0_w5s1p0_0 h_S_
          (ix4 b z h w)
      ↔ zz ≤ init (Shape.Idx.first h_S_) ∧ ∀ k₁ k₂ : Fin 5,
          zz ≤ X (ix4 b z ⟨h.val + k₁.val, by omega⟩ ⟨w.val + k₂.val, by omega⟩) := by
  refine (WindowMin.le_reduceWindow_min_iff_of_inside (α := EReal) _ _ _ _ X init _ h_S_ (ix4 b z h w) zz ?_).trans ?_
  · intro wi a
    have h0 : (wi 0).val < 1 := (wi 0).isLt
    have h1 : (wi 1).val < 1 := (wi 1).isLt
    have h2 : (wi 2).val < 5 := (wi 2).isLt
    have h3 : (wi 3).val < 5 := (wi 3).isLt
    match a with
    | ⟨0, _⟩ => show 0 ≤ b.val * 1 + (wi 0).val ∧ b.val * 1 + (wi 0).val - 0 < 32; omega
    | ⟨1, _⟩ => show 0 ≤ z.val * 1 + (wi 1).val ∧ z.val * 1 + (wi 1).val - 0 < 1; omega
    | ⟨2, _⟩ => show 0 ≤ h.val * 1 + (wi 2).val ∧ h.val * 1 + (wi 2).val - 0 < 1028; omega
    | ⟨3, _⟩ => show 0 ≤ w.val * 1 + (wi 3).val ∧ w.val * 1 + (wi 3).val - 0 < 1028; omega
  · refine and_congr_right fun _ => ⟨fun H k₁ k₂ => ?_, fun H wi => ?_⟩
    · refine le_of_le_of_eq (H (ix4 (0 : Fin 1) (0 : Fin 1) k₁ k₂)) (congrArg X (funext fun a => Fin.ext ?_))
      match a with
      | ⟨0, _⟩ => show b.val * 1 + 0 - 0 = b.val; omega
      | ⟨1, _⟩ => show z.val * 1 + 0 - 0 = z.val; omega
      | ⟨2, _⟩ => show h.val * 1 + k₁.val - 0 = h.val + k₁.val; omega
      | ⟨3, _⟩ => show w.val * 1 + k₂.val - 0 = w.val + k₂.val; omega
    · have h0 : (wi 0).val < 1 := (wi 0).isLt
      have h1 : (wi 1).val < 1 := (wi 1).isLt
      refine le_of_le_of_eq (H (wi 2) (wi 3)) (congrArg X (funext fun a => Fin.ext ?_))
      match a with
      | ⟨0, _⟩ => show b.val = b.val * 1 + (wi 0).val - 0; omega
      | ⟨1, _⟩ => show z.val = z.val * 1 + (wi 1).val - 0; omega
      | ⟨2, _⟩ => show h.val + (wi 2).val = h.val * 1 + (wi 2).val - 0; omega
      | ⟨3, _⟩ => show w.val + (wi 3).val = w.val * 1 + (wi 3).val - 0; omega

/-- The initial value of the window minimum is `+∞`. -/
theorem init_top : val_main_cst_0 (F := Ideal) (Shape.Idx.first h_S_) = (⊤ : EReal) := by
  show Ideal.ofBits .f32 0x7F800000#32 = ⊤
  simp [Ideal.ofBits, Ideal.ieee]

/-- The reference's result, as a function of its argument, is the eroded batch. -/
theorem result_eq (x : S32x1x1024x1024.Idx → Ideal .f32) : val_main_v1 (F := Ideal) x = eroded border x := by
  funext i
  obtain ⟨b, z, h, w, rfl⟩ : ∃ (b : Fin 32) (z : Fin 1) (h w : Fin 1024), i = ix4 b z h w :=
    ⟨i 0, i 1, i 2, i 3, eq_ix4 i⟩
  refine eq_of_forall_le_iff fun zz => ?_
  rw [eroded_apply, le_sepMin_iff]
  unfold val_main_v1
  rw [le_window_iff, init_top]
  simp only [pad_apply]
  exact ⟨fun H => H.2, fun H => ⟨le_top, H⟩⟩

end Cert.ReferenceIdeal.RefValue

end
-- ==== Proof.lean ====
/-
  Erosion of a batch of 32 × 1 images of 1024 × 1024 entries by a 5 × 5 window: each entry is replaced by the minimum of
  the 25 entries around it, the image being extended by a border of width two that holds the constant 10000.

  The kernel computes it separably, one image per grid point: in every column the minimum of five consecutive entries
  (five rotations of the image along its rows' axis, each masked to the constant where the rotation wrapped around),
  then in every row of that the minimum of five consecutive entries in the same way. The reference pads the batch with
  the constant and takes the minimum over every 5 × 5 window of the padded batch, folded from +∞.

  On the extended reals both are minima of finitely many entries, and a minimum is determined by its lower bounds. A
  value lies below the separable minimum at `(h, w)` iff it lies below the 25 entries `padded (h + k₁) (w + k₂)` of the
  extended image (Proof/Spec.lean): where the second pass reads the border the window's column is five copies of the
  constant, where it reads a column minimum the window's column is that column's five entries. The same 25 entries
  bound the reference's window minimum from below (Proof/LibWindowMin.lean, Proof/RefValue.lean). Only the order of the
  extended reals is used, so the inputs' finiteness is not needed for the equality; both programs spell the constant
  by the same word, which is never evaluated.

  Proof/Taps.lean reads one pass at an index, Proof/KernelValue.lean the kernel's blocks, the array they fill and the
  two re-layings around the call; the frames are the generated ones; the idealization rewrote nothing, so `preserves`
  is trivial.
-/
import proofs.«176648_j6339371728979_1_alg».proof.Defs
import proofs.«176648_j6339371728979_1_alg».proof.Proof.Gen.Kernel
import proofs.«176648_j6339371728979_1_alg».proof.Proof.Gen.Kernel.Skeleton
import proofs.«176648_j6339371728979_1_alg».proof.Proof.Gen.Kernel.Launch
import proofs.«176648_j6339371728979_1_alg».proof.Proof.Gen.Kernel.Points
import proofs.«176648_j6339371728979_1_alg».proof.Proof.Gen.Kernel.Frame
import proofs.«176648_j6339371728979_1_alg».proof.Proof.Gen.KernelIdeal
import proofs.«176648_j6339371728979_1_alg».proof.Proof.Gen.KernelIdeal.Skeleton
import proofs.«176648_j6339371728979_1_alg».proof.Proof.Gen.KernelIdeal.Launch
import proofs.«176648_j6339371728979_1_alg».proof.Proof.Gen.KernelIdeal.Points
import proofs.«176648_j6339371728979_1_alg».proof.Proof.Gen.KernelIdeal.Frame
import proofs.«176648_j6339371728979_1_alg».proof.Proof.Gen.ReferenceIdeal
import proofs.«176648_j6339371728979_1_alg».proof.Proof.Gen.Pre_finite_inputs
import proofs.«176648_j6339371728979_1_alg».proof.Proof.Gen.ReferenceIdeal.Run
import proofs.«176648_j6339371728979_1_alg».proof.Proof.Gen.ReferenceIdeal.Read
import proofs.«176648_j6339371728979_1_alg».proof.Proof.KernelValue
import proofs.«176648_j6339371728979_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its argument. -/
theorem frame_kernel : Cert.frame_Kernel := fun m ρ _ => Cert.Kernel.Gen.frame m ρ

/-- The idealized kernel runs and keeps its argument. -/
theorem frame_kernelIdeal : Cert.frame_KernelIdeal := fun m ρ _ => Cert.KernelIdeal.Gen.frame m ρ

/-- The idealized reference runs and keeps its argument: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the eroded batch of their (equal) arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
